-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S1 : Shape := ⟨1, ![1]⟩
abbrev S2000000x2 : Shape := ⟨2, ![2000000, 2]⟩
abbrev S2000000x3 : Shape := ⟨2, ![2000000, 3]⟩
abbrev S2000000x16 : Shape := ⟨2, ![2000000, 16]⟩
abbrev S_ : Shape := ⟨0, ![]⟩

class Facts : Prop where
  bcast_S_S2000000x4 : S_.BroadcastsInDim S2000000x4 (![] : Fin 0 → Fin S2000000x4.rank)
  reducesTo_S2000000x4_S_d0_1 : S2000000x4.ReducesTo [0, 1] S_
  h_S_ : 0 < S_.numel
  bcast_S_S1 : S_.BroadcastsInDim S1 (![] : Fin 0 → Fin S1.rank)
  reducesTo_S1_S_d0 : S1.ReducesTo [0] S_
  bcast_S_S2000000x2 : S_.BroadcastsInDim S2000000x2 (![] : Fin 0 → Fin S2000000x2.rank)
  reducesTo_S2000000x2_S_d0_1 : S2000000x2.ReducesTo [0, 1] S_
  bcast_S_S2000000x3 : S_.BroadcastsInDim S2000000x3 (![] : Fin 0 → Fin S2000000x3.rank)
  reducesTo_S2000000x3_S_d0_1 : S2000000x3.ReducesTo [0, 1] S_
  bcast_S_S2000000x16 : S_.BroadcastsInDim S2000000x16 (![] : Fin 0 → Fin S2000000x16.rank)
  reducesTo_S2000000x16_S_d0_1 : S2000000x16.ReducesTo [0, 1] S_

variable [Facts]

def fn_part1 {F : FTy → Type} [FloatOps F] (main_arg4 : FVec F S2000000x16 .f32) (main_v13 : IVec S_ 1) (main_v16 : IVec S2000000x3 1) : IVec S_ 1 :=
  let main_c_5 : IVec S_ 1 := constantI S_ 1 1#1
  let main_v17 : IVec S_ 1 := (fun x v => Host.reduce IntOp.andi x v reducesTo_S2000000x3_S_d0_1 h_S_) main_v16 main_c_5
  let main_v18 : IVec S_ 1 := andi main_v13 main_v17
  let main_v19 : FVec F S2000000x16 .f32 := Host.absf main_arg4
  let main_cst_6 : FVec F S_ .f32 := constant S_ .f32 0x7F800000#32
  let main_v20 : FVec F S2000000x16 .f32 := broadcastInDim S2000000x16 ![] bcast_S_S2000000x16 main_cst_6
  let main_v21 : IVec S2000000x16 1 := cmpf .olt main_v19 main_v20
  let main_c_7 : IVec S_ 1 := constantI S_ 1 1#1
  let main_v22 : IVec S_ 1 := (fun x v => Host.reduce IntOp.andi x v reducesTo_S2000000x16_S_d0_1 h_S_) main_v21 main_c_7
  let main_v23 : IVec S_ 1 := andi main_v18 main_v22
  main_v23

def fn {F : FTy → Type} [FloatOps F] (main_arg0 : FVec F S2000000x4 .f32) (main_arg1 : FVec F S1 .f32) (main_arg2 : FVec F S2000000x2 .f32) (main_arg3 : FVec F S2000000x3 .f32) (main_arg4 : FVec F S2000000x16 .f32) : IVec S_ 1 :=
  let main_v0 : FVec F S2000000x4 .f32 := Host.absf main_arg0
  let main_cst : FVec F S_ .f32 := constant S_ .f32 0x7F800000#32
  let main_v1 : FVec F S2000000x4 .f32 := broadcastInDim S2000000x4 ![] bcast_S_S2000000x4 main_cst
  let main_v2 : IVec S2000000x4 1 := cmpf .olt main_v0 main_v1
  let main_c : IVec S_ 1 := constantI S_ 1 1#1
  let main_v3 : IVec S_ 1 := (fun x v => Host.reduce IntOp.andi x v reducesTo_S2000000x4_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S2000000x2 .f32 := Host.absf main_arg2
  let main_cst_2 : FVec F S_ .f32 := constant S_ .f32 0x7F800000#32
  let main_v10 : FVec F S2000000x2 .f32 := broadcastInDim S2000000x2 ![] bcast_S_S2000000x2 main_cst_2
  let main_v11 : IVec S2000000x2 1 := cmpf .olt main_v9 main_v10
  let main_c_3 : IVec S_ 1 := constantI S_ 1 1#1
  let main_v12 : IVec S_ 1 := (fun x v => Host.reduce IntOp.andi x v reducesTo_S2000000x2_S_d0_1 h_S_) main_v11 main_c_3
  let main_v13 : IVec S_ 1 := andi main_v8 main_v12
  let main_v14 : FVec F S2000000x3 .f32 := Host.absf main_arg3
  let main_cst_4 : FVec F S_ .f32 := constant S_ .f32 0x7F800000#32
  let main_v15 : FVec F S2000000x3 .f32 := broadcastInDim S2000000x3 ![] bcast_S_S2000000x3 main_cst_4
  let main_v16 : IVec S2000000x3 1 := cmpf .olt main_v14 main_v15
  fn_part1 (F := F) main_arg4 main_v13 main_v16
-- ==== Kernel.lean ====
abbrev S2000000x4 : Shape := ⟨2, ![2000000, 4]⟩
abbrev S1 : Shape := ⟨1, ![1]⟩
abbrev S2000000x2 : Shape := ⟨2, ![2000000, 2]⟩
abbrev S2000000x3 : Shape := ⟨2, ![2000000, 3]⟩
abbrev S2000000x16 : Shape := ⟨2, ![2000000, 16]⟩
abbrev S2000000x9 : Shape := ⟨2, ![2000000, 9]⟩
abbrev S100000x4 : Shape := ⟨2, ![100000, 4]⟩
abbrev S100000x2 : Shape := ⟨2, ![100000, 2]⟩
abbrev S100000x3 : Shape := ⟨2, ![100000, 3]⟩
abbrev S100000x16 : Shape := ⟨2, ![100000, 16]⟩
abbrev S100000x9 : Shape := ⟨2, ![100000, 9]⟩
abbrev S100000x1 : Shape := ⟨2, ![100000, 1]⟩
abbrev S100000 : Shape := ⟨1, ![100000]⟩

abbrev nBuf : Space → Nat
  | .hbm => 6
  | .vmem => 11
  | .smem => 0
  | _ => 0

abbrev bufTy : (tb : Table) → Fin (tcTables nBuf tb) → BufTy
  | .hbm, ⟨0, _⟩ => ⟨S2000000x4, .f32⟩
  | .hbm, ⟨1, _⟩ => ⟨S1, .f32⟩
  | .hbm, ⟨2, _⟩ => ⟨S2000000x2, .f32⟩
  | .hbm, ⟨3, _⟩ => ⟨S2000000x3, .f32⟩
  | .hbm, ⟨4, _⟩ => ⟨S2000000x16, .f32⟩
  | .hbm, ⟨5, _⟩ => ⟨S2000000x9, .f32⟩
  | .local _ .vmem, ⟨0, _⟩ => ⟨S100000x4, .f32⟩
  | .local _ .vmem, ⟨1, _⟩ => ⟨S100000x4, .f32⟩
  | .local _ .vmem, ⟨2, _⟩ => ⟨S1, .f32⟩
  | .local _ .vmem, ⟨3, _⟩ => ⟨S100000x2, .f32⟩
  | .local _ .vmem, ⟨4, _⟩ => ⟨S100000x2, .f32⟩
  | .local _ .vmem, ⟨5, _⟩ => ⟨S100000x3, .f32⟩
  | .local _ .vmem, ⟨6, _⟩ => ⟨S100000x3, .f32⟩
  | .local _ .vmem, ⟨7, _⟩ => ⟨S100000x16, .f32⟩
  | .local _ .vmem, ⟨8, _⟩ => ⟨S100000x16, .f32⟩
  | .local _ .vmem, ⟨9, _⟩ => ⟨S100000x9, .f32⟩
  | .local _ .vmem, ⟨10, _⟩ => ⟨S100000x9, .f32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S100000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S100000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S100000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S100000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S100000x9 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S100000x4_S100000x4_0_0 : ∀ a, (![0, 0] : Fin 2 → Nat) a + S100000x4.size a ≤ S100000x4.size a
  h_S100000x4 : 0 < S100000x4.numel
  slices_S100000x4_o0_0_S100000x1 : S100000x4.Slices ![0, 0] S100000x1
  shapeCasts_S100000x1_S100000 : S100000x1.ShapeCasts S100000
  slices_S100000x4_o0_1_S100000x1 : S100000x4.Slices ![0, 1] S100000x1
  slices_S100000x4_o0_2_S100000x1 : S100000x4.Slices ![0, 2] S100000x1
  slices_S100000x4_o0_3_S100000x1 : S100000x4.Slices ![0, 3] S100000x1
  inb_S1_S1_0 : ∀ a, (![0] : Fin 1 → Nat) a + S1.size a ≤ S1.size a
  h_S1 : 0 < S1.numel
  inpos_S1_p0 : ∀ a, (![0] : Fin 1 → Nat) a < S1.size a
  inb_S100000x2_S100000x2_0_0 : ∀ a, (![0, 0] : Fin 2 → Nat) a + S100000x2.size a ≤ S100000x2.size a
  h_S100000x2 : 0 < S100000x2.numel
  slices_S100000x2_o0_0_S100000x1 : S100000x2.Slices ![0, 0] S100000x1
  slices_S100000x2_o0_1_S100000x1 : S100000x2.Slices ![0, 1] S100000x1
  inb_S100000x16_S100000x16_0_0 : ∀ a, (![0, 0] : Fin 2 → Nat) a + S100000x16.size a ≤ S100000x16.size a
  h_S100000x16 : 0 < S100000x16.numel
  slices_S100000x16_o0_0_S100000x1 : S100000x16.Slices ![0, 0] S100000x1
  slices_S100000x16_o0_1_S100000x1 : S100000x16.Slices ![0, 1] S100000x1
  slices_S100000x16_o0_2_S100000x1 : S100000x16.Slices ![0, 2] S100000x1
  slices_S100000x16_o0_4_S100000x1 : S100000x16.Slices ![0, 4] S100000x1
  slices_S100000x16_o0_5_S100000x1 : S100000x16.Slices ![0, 5] S100000x1
  slices_S100000x16_o0_6_S100000x1 : S100000x16.Slices ![0, 6] S100000x1
  slices_S100000x16_o0_8_S100000x1 : S100000x16.Slices ![0, 8] S100000x1
  slices_S100000x16_o0_9_S100000x1 : S100000x16.Slices ![0, 9] S100000x1
  slices_S100000x16_o0_10_S100000x1 : S100000x16.Slices ![0, 10] S100000x1
  slices_S100000x16_o0_12_S100000x1 : S100000x16.Slices ![0, 12] S100000x1
  slices_S100000x16_o0_13_S100000x1 : S100000x16.Slices ![0, 13] S100000x1
  slices_S100000x16_o0_14_S100000x1 : S100000x16.Slices ![0, 14] S100000x1
  inb_S100000x3_S100000x3_0_0 : ∀ a, (![0, 0] : Fin 2 → Nat) a + S100000x3.size a ≤ S100000x3.size a
  h_S100000x3 : 0 < S100000x3.numel
  slices_S100000x3_o0_0_S100000x1 : S100000x3.Slices ![0, 0] S100000x1
  slices_S100000x3_o0_1_S100000x1 : S100000x3.Slices ![0, 1] S100000x1
  slices_S100000x3_o0_2_S100000x1 : S100000x3.Slices ![0, 2] S100000x1
  inb_S100000x9_S100000x1_0_0 : ∀ a, (![0, 0] : Fin 2 → Nat) a + S100000x1.size a ≤ S100000x9.size a
  h_S100000x1 : 0 < S100000x1.numel
  shapeCasts_S100000_S100000x1 : S100000.ShapeCasts S100000x1
  inb_S100000x9_S100000x1_0_1 : ∀ a, (![0, 1] : Fin 2 → Nat) a + S100000x1.size a ≤ S100000x9.size a
  inb_S100000x9_S100000x1_0_2 : ∀ a, (![0, 2] : Fin 2 → Nat) a + S100000x1.size a ≤ S100000x9.size a
  inb_S100000x9_S100000x1_0_3 : ∀ a, (![0, 3] : Fin 2 → Nat) a + S100000x1.size a ≤ S100000x9.size a
  inb_S100000x9_S100000x1_0_4 : ∀ a, (![0, 4] : Fin 2 → Nat) a + S100000x1.size a ≤ S100000x9.size a
  inb_S100000x9_S100000x1_0_5 : ∀ a, (![0, 5] : Fin 2 → Nat) a + S100000x1.size a ≤ S100000x9.size a
  inb_S100000x9_S100000x1_0_6 : ∀ a, (![0, 6] : Fin 2 → Nat) a + S100000x1.size a ≤ S100000x9.size a
  inb_S100000x9_S100000x1_0_7 : ∀ a, (![0, 7] : Fin 2 → Nat) a + S100000x1.size a ≤ S100000x9.size a
  inb_S100000x9_S100000x1_0_8 : ∀ a, (![0, 8] : Fin 2 → Nat) a + S100000x1.size a ≤ S100000x9.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100000x4.size a ≤ S2000000x4.size a
  hwx0_0 : ∀ i : grid0.Coords, EltTy.bits .f32 = 32 ∨ (Rect.block (s := S2000000x4) S100000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1.size a ≤ S1.size a
  hwx0_1 : ∀ i : grid0.Coords, EltTy.bits .f32 = 32 ∨ (Rect.block (s := S1) S1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S100000x2.size a ≤ S2000000x2.size a
  hwx0_2 : ∀ i : grid0.Coords, EltTy.bits .f32 = 32 ∨ (Rect.block (s := S2000000x2) S100000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S100000x3.size a ≤ S2000000x3.size a
  hwx0_3 : ∀ i : grid0.Coords, EltTy.bits .f32 = 32 ∨ (Rect.block (s := S2000000x3) S100000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S100000x16.size a ≤ S2000000x16.size a
  hwx0_4 : ∀ i : grid0.Coords, EltTy.bits .f32 = 32 ∨ (Rect.block (s := S2000000x16) S100000x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S100000x9.size a ≤ S2000000x9.size a
  hwx0_5 : ∀ i : grid0.Coords, EltTy.bits .f32 = 32 ∨ (Rect.block (s := S2000000x9) S100000x9.size (cc0_transform_5 i) (hinb0_5 i)).WholeWords (EltTy.packing .f32)

variable [Facts₀]

abbrev win0_0 : Pipeline.Window sig grid0 :=
  Pipeline.Window.ofSpec (Memref.whole main_arg0) S100000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S100000x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S100000x9.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S1 : Shape := ⟨1, ![1]⟩
abbrev S2000000x2 : Shape := ⟨2, ![2000000, 2]⟩
abbrev S2000000x3 : Shape := ⟨2, ![2000000, 3]⟩
abbrev S2000000x16 : Shape := ⟨2, ![2000000, 16]⟩
abbrev S2000000x1 : Shape := ⟨2, ![2000000, 1]⟩
abbrev S2000000 : Shape := ⟨1, ![2000000]⟩
abbrev S_ : Shape := ⟨0, ![]⟩
abbrev S2000000x9 : Shape := ⟨2, ![2000000, 9]⟩

abbrev nBuf : Space → Nat
  | .hbm => 194
  | .vmem => 0
  | .smem => 0
  | _ => 0

abbrev hbmTy0_0 (i : Nat) : BufTy := match i % 128 with
  | 0 => ⟨S2000000x4, .f32⟩
  | 1 => ⟨S1, .f32⟩
  | 2 => ⟨S2000000x2, .f32⟩
  | 3 => ⟨S2000000x3, .f32⟩
  | 4 => ⟨S2000000x16, .f32⟩
  | 5 => ⟨S2000000x1, .f32⟩
  | 6 => ⟨S2000000, .f32⟩
  | 7 => ⟨S2000000x1, .f32⟩
  | 8 => ⟨S2000000, .f32⟩
  | 9 => ⟨S2000000x1, .f32⟩
  | 10 => ⟨S2000000, .f32⟩
  | 11 => ⟨S2000000x1, .f32⟩
  | 12 => ⟨S2000000, .f32⟩
  | 13 => ⟨S_, .f32⟩
  | 14 => ⟨S2000000, .f32⟩
  | 15 => ⟨S2000000, .f32⟩
  | 16 => ⟨S2000000, .f32⟩
  | 17 => ⟨S_, .f32⟩
  | 18 => ⟨S2000000, .f32⟩
  | 19 => ⟨S2000000, .f32⟩
  | 20 => ⟨S_, .f32⟩
  | 21 => ⟨S2000000, .f32⟩
  | 22 => ⟨S2000000, .f32⟩
  | 23 => ⟨S2000000, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S2000000, .f32⟩
  | 31 => ⟨S2000000, .f32⟩
  | 32 => ⟨S_, .f32⟩
  | 33 => ⟨S2000000, .f32⟩
  | 34 => ⟨S2000000, .f32⟩
  | 35 => ⟨S2000000, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S2000000, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S_, .f32⟩
  | 48 => ⟨S2000000, .f32⟩
  | 49 => ⟨S2000000, .f32⟩
  | 50 => ⟨S2000000, .f32⟩
  | 51 => ⟨S2000000, .f32⟩
  | 52 => ⟨S2000000, .f32⟩
  | 53 => ⟨S_, .f32⟩
  | 54 => ⟨S2000000, .f32⟩
  | 55 => ⟨S2000000, .f32⟩
  | 56 => ⟨S2000000x1, .f32⟩
  | 57 => ⟨S2000000, .f32⟩
  | 58 => ⟨S2000000, .f32⟩
  | 59 => ⟨S2000000, .f32⟩
  | 60 => ⟨S2000000x1, .f32⟩
  | 61 => ⟨S2000000, .f32⟩
  | 62 => ⟨S2000000, .f32⟩
  | 63 => ⟨S2000000, .f32⟩
  | 64 => ⟨S2000000, .f32⟩
  | 65 => ⟨S2000000, .f32⟩
  | 66 => ⟨S2000000, .f32⟩
  | 67 => ⟨S2000000, .f32⟩
  | 68 => ⟨S2000000, .f32⟩
  | 69 => ⟨S2000000, .f32⟩
  | 70 => ⟨S2000000x1, .f32⟩
  | 71 => ⟨S2000000, .f32⟩
  | 72 => ⟨S2000000, .f32⟩
  | 73 => ⟨S2000000x1, .f32⟩
  | 74 => ⟨S2000000, .f32⟩
  | 75 => ⟨S2000000, .f32⟩
  | 76 => ⟨S2000000, .f32⟩
  | 77 => ⟨S2000000x1, .f32⟩
  | 78 => ⟨S2000000, .f32⟩
  | 79 => ⟨S2000000, .f32⟩
  | 80 => ⟨S2000000, .f32⟩
  | 81 => ⟨S2000000x1, .f32⟩
  | 82 => ⟨S2000000, .f32⟩
  | 83 => ⟨S2000000, .f32⟩
  | 84 => ⟨S2000000x1, .f32⟩
  | 85 => ⟨S2000000, .f32⟩
  | 86 => ⟨S2000000, .f32⟩
  | 87 => ⟨S2000000, .f32⟩
  | 88 => ⟨S2000000x1, .f32⟩
  | 89 => ⟨S2000000, .f32⟩
  | 90 => ⟨S2000000, .f32⟩
  | 91 => ⟨S2000000, .f32⟩
  | 92 => ⟨S2000000x1, .f32⟩
  | 93 => ⟨S2000000, .f32⟩
  | 94 => ⟨S2000000, .f32⟩
  | 95 => ⟨S2000000x1, .f32⟩
  | 96 => ⟨S2000000, .f32⟩
  | 97 => ⟨S2000000, .f32⟩
  | 98 => ⟨S2000000, .f32⟩
  | 99 => ⟨S2000000x1, .f32⟩
  | 100 => ⟨S2000000, .f32⟩
  | 101 => ⟨S2000000, .f32⟩
  | 102 => ⟨S2000000, .f32⟩
  | 103 => ⟨S2000000x1, .f32⟩
  | 104 => ⟨S2000000, .f32⟩
  | 105 => ⟨S2000000, .f32⟩
  | 106 => ⟨S2000000x1, .f32⟩
  | 107 => ⟨S2000000, .f32⟩
  | 108 => ⟨S2000000, .f32⟩
  | 109 => ⟨S2000000, .f32⟩
  | 110 => ⟨S2000000x1, .f32⟩
  | 111 => ⟨S2000000, .f32⟩
  | 112 => ⟨S2000000, .f32⟩
  | 113 => ⟨S2000000, .f32⟩
  | 114 => ⟨S2000000x1, .f32⟩
  | 115 => ⟨S2000000, .f32⟩
  | 116 => ⟨S2000000, .f32⟩
  | 117 => ⟨S2000000x1, .f32⟩
  | 118 => ⟨S2000000, .f32⟩
  | 119 => ⟨S2000000, .f32⟩
  | 120 => ⟨S2000000, .f32⟩
  | 121 => ⟨S2000000x1, .f32⟩
  | 122 => ⟨S2000000, .f32⟩
  | 123 => ⟨S2000000, .f32⟩
  | 124 => ⟨S2000000, .f32⟩
  | 125 => ⟨S2000000x1, .f32⟩
  | 126 => ⟨S2000000, .f32⟩
  | 127 => ⟨S2000000, .f32⟩
  | _ => ⟨S2000000x4, .f32⟩

abbrev hbmTy0_1 (i : Nat) : BufTy := match i % 128 with
  | 0 => ⟨S2000000x1, .f32⟩
  | 1 => ⟨S2000000, .f32⟩
  | 2 => ⟨S2000000, .f32⟩
  | 3 => ⟨S2000000, .f32⟩
  | 4 => ⟨S2000000x1, .f32⟩
  | 5 => ⟨S2000000, .f32⟩
  | 6 => ⟨S2000000, .f32⟩
  | 7 => ⟨S2000000, .f32⟩
  | 8 => ⟨S2000000x1, .f32⟩
  | 9 => ⟨S2000000, .f32⟩
  | 10 => ⟨S2000000x1, .f32⟩
  | 11 => ⟨S2000000, .f32⟩
  | 12 => ⟨S2000000x1, .f32⟩
  | 13 => ⟨S2000000, .f32⟩
  | 14 => ⟨S2000000x1, .f32⟩
  | 15 => ⟨S2000000, .f32⟩
  | 16 => ⟨S2000000, .f32⟩
  | 17 => ⟨S2000000x1, .f32⟩
  | 18 => ⟨S2000000, .f32⟩
  | 19 => ⟨S2000000, .f32⟩
  | 20 => ⟨S2000000, .f32⟩
  | 21 => ⟨S2000000x1, .f32⟩
  | 22 => ⟨S2000000, .f32⟩
  | 23 => ⟨S2000000, .f32⟩
  | 24 => ⟨S2000000, .f32⟩
  | 25 => ⟨S2000000x1, .f32⟩
  | 26 => ⟨S2000000, .f32⟩
  | 27 => ⟨S2000000, .f32⟩
  | 28 => ⟨S2000000x1, .f32⟩
  | 29 => ⟨S2000000, .f32⟩
  | 30 => ⟨S2000000, .f32⟩
  | 31 => ⟨S2000000x1, .f32⟩
  | 32 => ⟨S2000000, .f32⟩
  | 33 => ⟨S2000000, .f32⟩
  | 34 => ⟨S2000000, .f32⟩
  | 35 => ⟨S2000000x1, .f32⟩
  | 36 => ⟨S2000000, .f32⟩
  | 37 => ⟨S2000000, .f32⟩
  | 38 => ⟨S2000000, .f32⟩
  | 39 => ⟨S2000000x1, .f32⟩
  | 40 => ⟨S2000000, .f32⟩
  | 41 => ⟨S2000000, .f32⟩
  | 42 => ⟨S2000000x1, .f32⟩
  | 43 => ⟨S2000000, .f32⟩
  | 44 => ⟨S2000000, .f32⟩
  | 45 => ⟨S2000000x1, .f32⟩
  | 46 => ⟨S2000000, .f32⟩
  | 47 => ⟨S2000000, .f32⟩
  | 48 => ⟨S2000000, .f32⟩
  | 49 => ⟨S2000000x1, .f32⟩
  | 50 => ⟨S2000000, .f32⟩
  | 51 => ⟨S2000000, .f32⟩
  | 52 => ⟨S2000000, .f32⟩
  | 53 => ⟨S2000000x1, .f32⟩
  | 54 => ⟨S2000000, .f32⟩
  | 55 => ⟨S2000000, .f32⟩
  | 56 => ⟨S2000000x1, .f32⟩
  | 57 => ⟨S2000000x1, .f32⟩
  | 58 => ⟨S2000000x1, .f32⟩
  | 59 => ⟨S2000000x1, .f32⟩
  | 60 => ⟨S2000000x1, .f32⟩
  | 61 => ⟨S2000000x1, .f32⟩
  | 62 => ⟨S2000000x1, .f32⟩
  | 63 => ⟨S2000000x1, .f32⟩
  | 64 => ⟨S2000000x1, .f32⟩
  | 65 => ⟨S2000000x9, .f32⟩
  | _ => ⟨S2000000x4, .f32⟩

abbrev hbmTy (i : Nat) : BufTy := match i / 128 with
  | 0 => hbmTy0_0 i
  | 1 => hbmTy0_1 i
  | _ => ⟨S2000000x4, .f32⟩

abbrev bufTy : (tb : Table) → Fin (tcTables nBuf tb) → BufTy
  | .hbm, ⟨i, _⟩ => hbmTy i
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩

abbrev nD : Nat := 1
abbrev τ : Topo := Topo.v7x

variable {F : FTy → Type} [FloatOps F]

class Facts₀ : Prop where
  slices_S2000000x4_S2000000x1_0_0 : S2000000x4.Slices ![0, 0] S2000000x1
  shapeCasts_S2000000x1_S2000000 : S2000000x1.ShapeCasts S2000000
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1
  shapeCasts_S1_S_ : S1.ShapeCasts S_
  bcast_S_S2000000 : S_.BroadcastsInDim S2000000 (![] : Fin 0 → Fin S2000000.rank)
  slices_S2000000x2_S2000000x1_0_0 : S2000000x2.Slices ![0, 0] S2000000x1
  slices_S2000000x2_S2000000x1_0_1 : S2000000x2.Slices ![0, 1] S2000000x1
  slices_S2000000x16_S2000000x1_0_0 : S2000000x16.Slices ![0, 0] S2000000x1
  slices_S2000000x16_S2000000x1_0_4 : S2000000x16.Slices ![0, 4] S2000000x1
  slices_S2000000x16_S2000000x1_0_8 : S2000000x16.Slices ![0, 8] S2000000x1
  slices_S2000000x16_S2000000x1_0_1 : S2000000x16.Slices ![0, 1] S2000000x1
  slices_S2000000x16_S2000000x1_0_5 : S2000000x16.Slices ![0, 5] S2000000x1
  slices_S2000000x16_S2000000x1_0_9 : S2000000x16.Slices ![0, 9] S2000000x1
  slices_S2000000x16_S2000000x1_0_2 : S2000000x16.Slices ![0, 2] S2000000x1
  slices_S2000000x16_S2000000x1_0_6 : S2000000x16.Slices ![0, 6] S2000000x1
  slices_S2000000x16_S2000000x1_0_10 : S2000000x16.Slices ![0, 10] S2000000x1
  slices_S2000000x3_S2000000x1_0_0 : S2000000x3.Slices ![0, 0] S2000000x1
  slices_S2000000x3_S2000000x1_0_1 : S2000000x3.Slices ![0, 1] S2000000x1
  slices_S2000000x3_S2000000x1_0_2 : S2000000x3.Slices ![0, 2] S2000000x1
  slices_S2000000x16_S2000000x1_0_12 : S2000000x16.Slices ![0, 12] S2000000x1
  slices_S2000000x16_S2000000x1_0_13 : S2000000x16.Slices ![0, 13] S2000000x1
  slices_S2000000x16_S2000000x1_0_14 : S2000000x16.Slices ![0, 14] S2000000x1
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x1_S2000000x1_S2000000x9_d1 : Shape.Concatenates [S2000000x1, S2000000x1, S2000000x1, S2000000x1, S2000000x1, S2000000x1, S2000000x1, S2000000x1, S2000000x1] S2000000x9 1

variable [Facts₀]

class Facts : Prop extends Facts₀ where

variable [Facts]
-- ==== Proof.LibColumns.lean ====
/-
  Single columns of a two-axis array, read at an index.

  A row-wise computation over an array [a, b] is written, both by a vector program and by a host program, as arithmetic on
  COLUMNS: column o of X is cut out as an [a, 1] slice and its unit axis dropped, giving the vector whose entry i is
  X (i, o); a computed vector [a] is turned back into an [a, 1] column (by a cast, or by a broadcast along a new unit
  axis); and nine such columns laid side by side make an [a, 9] array whose entry (i, k) is entry i of column k.
  Each lemma here reads one of these layout steps at an index given by coordinates, for any number of rows a.
-/
import Idealize.ShloMosaic.Lib.ValueLayout
import Idealize.ShloMosaic.Lib.IdealHost

namespace Cert.Columns

open Idealize.ShloMosaic Idealize.ShloMosaic.ValueIdx

variable {α : Type}

/-- An [a, 1] column with its unit axis dropped reads, at i, the column at (i, 0). -/
theorem cast_col_vec_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to an [a, 1] column reads, at (i, u), the vector at i, whatever the unit coordinate u. -/
theorem cast_vec_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector [a] broadcast along a new trailing unit axis reads, at (i, u), the vector at i. -/
theorem bcast_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun d => by
    match d with
    | ⟨0, _⟩ =>
      show i.val = if a = 1 then 0 else i.val
      by_cases h1 : a = 1
      · rw [if_pos h1]; have := i.isLt; omega
      · rw [if_neg h1])

/-- A one-entry array cast to a scalar reads that entry. -/
theorem cast_one_scalar_apply (x : (⟨1, ![1]⟩ : Shape).Idx → α) (h : (⟨1, ![1]⟩ : Shape).ShapeCasts ⟨0, ![]⟩)
    (j : (⟨0, ![]⟩ : Shape).Idx) : shapeCast ⟨0, ![]⟩ x h j = x (ix1 (0 : Fin 1)) :=
  (shapeCast_dropUnit_apply ![] x h j).trans (congrArg x (funext fun a => match a with | ⟨0, _⟩ => rfl))

/-- Column o of an [a, b] array, as a vector: entry i is the array at (i, o). -/
theorem column_apply {a b : ℕ} (o : ℕ) (X : (⟨2, ![a, b]⟩ : Shape).Idx → α)
    (hs : (⟨2, ![a, b]⟩ : Shape).Slices ![0, o] ⟨2, ![a, 1]⟩)
    (hc : (⟨2, ![a, 1]⟩ : Shape).ShapeCasts ⟨1, ![a]⟩) (i : Fin a) (k : Fin b) (hk : k.val = o) :
    shapeCast ⟨1, ![a]⟩ (extractStridedSlice ⟨2, ![a, 1]⟩ ![0, o] X hs) hc (ix1 i) = X (ix2 i k) :=
  (cast_col_vec_apply _ hc i).trans (slice2_axis1_apply o X hs i 0 k (by rw [hk]; rfl))

/-- `column_apply` as a rewrite rule, the column coordinate written out. -/
theorem column_eq {a b : ℕ} (o : ℕ) (X : (⟨2, ![a, b]⟩ : Shape).Idx → α)
    (hs : (⟨2, ![a, b]⟩ : Shape).Slices ![0, o] ⟨2, ![a, 1]⟩)
    (hc : (⟨2, ![a, 1]⟩ : Shape).ShapeCasts ⟨1, ![a]⟩) (i : Fin a) :
    shapeCast ⟨1, ![a]⟩ (extractStridedSlice ⟨2, ![a, 1]⟩ ![0, o] X hs) hc (ix1 i)
      = X (ix2 i ⟨o, Nat.lt_of_lt_of_le (Nat.lt_succ_self o) (hs.2 1)⟩) :=
  column_apply o X hs hc i _ rfl

/-- The k-th of nine things. -/
def pick9 {β : Type} (u0 u1 u2 u3 u4 u5 u6 u7 u8 : β) : Fin 9 → β
  | ⟨0, _⟩ => u0 | ⟨1, _⟩ => u1 | ⟨2, _⟩ => u2 | ⟨3, _⟩ => u3 | ⟨4, _⟩ => u4
  | ⟨5, _⟩ => u5 | ⟨6, _⟩ => u6 | ⟨7, _⟩ => u7 | ⟨8, _⟩ => u8

/-- Nine [a, 1] columns laid side by side read, at (i, k), column k at (i, 0). -/
theorem nine_columns_apply {a : ℕ} (u0 u1 u2 u3 u4 u5 u6 u7 u8 : (⟨2, ![a, 1]⟩ : Shape).Idx → α)
    (h : Shape.Concatenates (([⟨⟨2, ![a, 1]⟩, u0⟩, ⟨⟨2, ![a, 1]⟩, u1⟩, ⟨⟨2, ![a, 1]⟩, u2⟩, ⟨⟨2, ![a, 1]⟩, u3⟩,
        ⟨⟨2, ![a, 1]⟩, u4⟩, ⟨⟨2, ![a, 1]⟩, u5⟩, ⟨⟨2, ![a, 1]⟩, u6⟩, ⟨⟨2, ![a, 1]⟩, u7⟩, ⟨⟨2, ![a, 1]⟩, u8⟩] :
        List ((s : Shape) × (s.Idx → α))).map (·.1)) ⟨2, ![a, 9]⟩ 1)
    (i : Fin a) (k : Fin 9) :
    concatenate ⟨2, ![a, 9]⟩ 1 [⟨⟨2, ![a, 1]⟩, u0⟩, ⟨⟨2, ![a, 1]⟩, u1⟩, ⟨⟨2, ![a, 1]⟩, u2⟩, ⟨⟨2, ![a, 1]⟩, u3⟩,
        ⟨⟨2, ![a, 1]⟩, u4⟩, ⟨⟨2, ![a, 1]⟩, u5⟩, ⟨⟨2, ![a, 1]⟩, u6⟩, ⟨⟨2, ![a, 1]⟩, u7⟩, ⟨⟨2, ![a, 1]⟩, u8⟩] h (ix2 i k)
      = pick9 u0 u1 u2 u3 u4 u5 u6 u7 u8 k (ix2 i (0 : Fin 1)) := by
  have hi : ∀ (kk : Fin 9) (b : Fin (⟨2, ![a, 1]⟩ : Shape).rank), b.cast (rfl : (2 : ℕ) = 2) ≠ (1 : Fin 2) →
      ((ix2 i (0 : Fin 1) : (⟨2, ![a, 1]⟩ : Shape).Idx) b).val = ((ix2 i kk : (⟨2, ![a, 9]⟩ : Shape).Idx) (b.cast rfl)).val :=
    fun kk b hb => by
      match b with
      | ⟨0, _⟩ => rfl
      | ⟨1, _⟩ => exact absurd rfl hb
  match k with
  | ⟨0, _⟩ => exact concatenate_apply_piece 1 _ h _ 0 (by show (0 : ℕ) < 9; decide) _ u0 rfl rfl 0 rfl (ix2 i 0) (hi _) rfl
  | ⟨1, _⟩ => exact concatenate_apply_piece 1 _ h _ 1 (by show (1 : ℕ) < 9; decide) _ u1 rfl rfl 1 rfl (ix2 i 0) (hi _) rfl
  | ⟨2, _⟩ => exact concatenate_apply_piece 1 _ h _ 2 (by show (2 : ℕ) < 9; decide) _ u2 rfl rfl 2 rfl (ix2 i 0) (hi _) rfl
  | ⟨3, _⟩ => exact concatenate_apply_piece 1 _ h _ 3 (by show (3 : ℕ) < 9; decide) _ u3 rfl rfl 3 rfl (ix2 i 0) (hi _) rfl
  | ⟨4, _⟩ => exact concatenate_apply_piece 1 _ h _ 4 (by show (4 : ℕ) < 9; decide) _ u4 rfl rfl 4 rfl (ix2 i 0) (hi _) rfl
  | ⟨5, _⟩ => exact concatenate_apply_piece 1 _ h _ 5 (by show (5 : ℕ) < 9; decide) _ u5 rfl rfl 5 rfl (ix2 i 0) (hi _) rfl
  | ⟨6, _⟩ => exact concatenate_apply_piece 1 _ h _ 6 (by show (6 : ℕ) < 9; decide) _ u6 rfl rfl 6 rfl (ix2 i 0) (hi _) rfl
  | ⟨7, _⟩ => exact concatenate_apply_piece 1 _ h _ 7 (by show (7 : ℕ) < 9; decide) _ u7 rfl rfl 7 rfl (ix2 i 0) (hi _) rfl
  | ⟨8, _⟩ => exact concatenate_apply_piece 1 _ h _ 8 (by show (8 : ℕ) < 9; decide) _ u8 rfl rfl 8 rfl (ix2 i 0) (hi _) rfl

end Cert.Columns
-- ==== Proof.RowMap.lean ====
/-
  The map computed on every row.

  A row holds a quaternion q = (r, x, y, z), a pair of scales s, a point p, sixteen entries v of a 4 x 4 matrix stored
  column by column, and all rows share one scalar m. The first two columns of the quaternion's rotation matrix are
      (1 - 2 (y y + z z),  2 (x y + r z),  2 (x z - r y))   and   (2 (x y - r z),  1 - 2 (x x + z z),  2 (y z + r x));
  scaled by m s0 and m s1 they are the tangent vectors U and W. The nine results are, for each of the first three rows
  c of the matrix, its upper-left 3 x 3 part applied to U and to W, and its affine action on p (the 3 x 3 part applied
  to p, plus the translation entry). Everything is a fixed tree of sums, differences and products of extended reals, so
  the spelling (the grouping of every sum and product) is part of the definition: two programs that spell this same tree
  agree at every input, finite or not. The constants 2 and 1 are kept as the f32 words both programs write.
-/
import Idealize.ShloMosaic.PureOps.Ideal
import Idealize.ShloMosaic.Lib.ValueIdx

noncomputable section

namespace Cert.RowMap

open Idealize.ShloMosaic Idealize.ShloMosaic.ValueIdx

/-- The f32 word of 2.0, read at the ideal instance. -/
abbrev c2 : Ideal .f32 := Ideal.ofBits .f32 0x40000000#32
/-- The f32 word of 1.0, read at the ideal instance. -/
abbrev c1 : Ideal .f32 := Ideal.ofBits .f32 0x3F800000#32

section Row

variable (q : Fin 4 → Ideal .f32) (m : Ideal .f32) (s : Fin 2 → Ideal .f32) (p : Fin 3 → Ideal .f32) (v : Fin 16 → Ideal .f32)

/-- First column of the rotation matrix of the quaternion (r, x, y, z) = (q 0, q 1, q 2, q 3). -/
def rot00 : Ideal .f32 := c1 - c2 * (q 2 * q 2 + q 3 * q 3)
def rot10 : Ideal .f32 := c2 * (q 1 * q 2 + q 0 * q 3)
def rot20 : Ideal .f32 := c2 * (q 1 * q 3 - q 0 * q 2)
/-- Second column of the rotation matrix. -/
def rot01 : Ideal .f32 := c2 * (q 1 * q 2 - q 0 * q 3)
def rot11 : Ideal .f32 := c1 - c2 * (q 1 * q 1 + q 3 * q 3)
def rot21 : Ideal .f32 := c2 * (q 2 * q 3 + q 0 * q 1)

/-- The first tangent vector: the first rotation column scaled by m s0. -/
def tanU0 : Ideal .f32 := m * s 0 * rot00 q
def tanU1 : Ideal .f32 := m * s 0 * rot10 q
def tanU2 : Ideal .f32 := m * s 0 * rot20 q
/-- The second tangent vector: the second rotation column scaled by m s1. -/
def tanW0 : Ideal .f32 := m * s 1 * rot01 q
def tanW1 : Ideal .f32 := m * s 1 * rot11 q
def tanW2 : Ideal .f32 := m * s 1 * rot21 q

/-- The nine results of one row: for matrix row c = 0, 1, 2 (entries v c, v (c+4), v (c+8), translation v (c+12)), the
    images of U, of W and of the point p. -/
def entry : Fin 9 → Ideal .f32
  | ⟨0, _⟩ => v 0 * tanU0 q m s + v 4 * tanU1 q m s + v 8 * tanU2 q m s
  | ⟨1, _⟩ => v 0 * tanW0 q m s + v 4 * tanW1 q m s + v 8 * tanW2 q m s
  | ⟨2, _⟩ => v 0 * p 0 + v 4 * p 1 + v 8 * p 2 + v 12
  | ⟨3, _⟩ => v 1 * tanU0 q m s + v 5 * tanU1 q m s + v 9 * tanU2 q m s
  | ⟨4, _⟩ => v 1 * tanW0 q m s + v 5 * tanW1 q m s + v 9 * tanW2 q m s
  | ⟨5, _⟩ => v 1 * p 0 + v 5 * p 1 + v 9 * p 2 + v 13
  | ⟨6, _⟩ => v 2 * tanU0 q m s + v 6 * tanU1 q m s + v 10 * tanU2 q m s
  | ⟨7, _⟩ => v 2 * tanW0 q m s + v 6 * tanW1 q m s + v 10 * tanW2 q m s
  | ⟨8, _⟩ => v 2 * p 0 + v 6 * p 1 + v 10 * p 2 + v 14

end Row

/-- The whole result: entry (i, k) is result k of row i of the five arrays (the scalar is the one entry of `mod`).
    Stated for any number of rows: the same function describes one block of rows and the whole array. -/
def rowsMap {N : ℕ} (rot : (⟨2, ![N, 4]⟩ : Shape).Idx → Ideal .f32) (mod : (⟨1, ![1]⟩ : Shape).Idx → Ideal .f32)
    (scale : (⟨2, ![N, 2]⟩ : Shape).Idx → Ideal .f32) (pk : (⟨2, ![N, 3]⟩ : Shape).Idx → Ideal .f32)
    (vm : (⟨2, ![N, 16]⟩ : Shape).Idx → Ideal .f32) : (⟨2, ![N, 9]⟩ : Shape).Idx → Ideal .f32 :=
  fun j => entry (fun a => rot (ix2 (j 0) a)) (mod (ix1 0)) (fun a => scale (ix2 (j 0) a)) (fun a => pk (ix2 (j 0) a))
    (fun a => vm (ix2 (j 0) a)) (j 1)

end Cert.RowMap

end
-- ==== Proof.KernelBlock.lean ====
/-
  What one grid step leaves in its output block.

  At a grid step the body holds a block of 100000 rows of each array (and the one-entry scalar array). It computes on
  COLUMNS: every column it needs is cut out of its block as a vector over the rows, the nine result vectors are built
  from them by elementwise sums, differences and products, and each result vector is stored as one column of the
  [100000, 9] output block. Read at row i, a column cut from a block is that block's entry in row i, and the elementwise
  operations act entry by entry, so result column k at row i is result k of the row map (RowMap.lean) at row i of the
  blocks. The nine stored columns tile the output block, so the block the step leaves is the row map of its input
  blocks, entry by entry: `block_eq`.
-/
import proofs.«150587_j36567351558250_1_alg».proof.Proof.Gen.KernelIdeal.Frame
import proofs.«150587_j36567351558250_1_alg».proof.Proof.LibColumns
import proofs.«150587_j36567351558250_1_alg».proof.Proof.RowMap
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Columns Cert.RowMap

variable (x0 : Vec Ideal S100000x4 .f32) (x1 : Vec Ideal S1 .f32) (x2 : Vec Ideal S100000x2 .f32)
  (x3 : Vec Ideal S100000x3 .f32) (x4 : Vec Ideal S100000x16 .f32)

/-- The scalar the body extracts from the one-entry block is that block's entry. -/
theorem scalar_eq : k0_pay11 (F := Ideal) x1 = x1 (ix1 (0 : Fin 1)) := by
  unfold k0_pay11 extractAt
  exact congrArg x1 (funext fun a => match a with | ⟨0, _⟩ => rfl)

/-- Row i of a block, as a function of the column. -/
abbrev row {b : ℕ} (X : (⟨2, ![100000, b]⟩ : Shape).Idx → Ideal .f32) (i : Fin 100000) : Fin b → Ideal .f32 :=
  fun a => X (ix2 i a)

/-- Stored column 0 at row i: the first matrix row applied to the first tangent. -/
theorem stored0 (i : Fin 100000) (u : Fin 1) :
    (k0_pay51 (k0_pay38 (k0_pay11 x1) (k0_pay12 x0) (k0_pay13 x0) (k0_pay14 x0) x2 x4) : FVec Ideal S100000x1 .f32) (ix2 i u)
      = entry (row x0 i) (x1 (ix1 (0 : Fin 1))) (row x2 i) (row x3 i) (row x4 i) ⟨0, by decide⟩ := by
  simp only [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, scalar_eq,
    cast_vec_col_apply, mulf_apply, addf_apply, subf_apply, broadcast_apply, column_eq]
  rfl

/-- Stored column 1 at row i: the first matrix row applied to the second tangent. -/
theorem stored1 (i : Fin 100000) (u : Fin 1) :
    (k0_pay52 (k0_pay39 (k0_pay11 x1) (k0_pay15 x0) (k0_pay16 x0) (k0_pay17 x0) x2 x4) : FVec Ideal S100000x1 .f32) (ix2 i u)
      = entry (row x0 i) (x1 (ix1 (0 : Fin 1))) (row x2 i) (row x3 i) (row x4 i) ⟨1, by decide⟩ := by
  simp only [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, scalar_eq,
    cast_vec_col_apply, mulf_apply, addf_apply, subf_apply, broadcast_apply, column_eq]
  rfl

/-- Stored column 2 at row i: the first matrix row's affine action on the point. -/
theorem stored2 (i : Fin 100000) (u : Fin 1) :
    (k0_pay53 (k0_pay26 x4) (k0_pay29 x4) (k0_pay32 x4) (k0_pay35 x4) x3 : FVec Ideal S100000x1 .f32) (ix2 i u)
      = entry (row x0 i) (x1 (ix1 (0 : Fin 1))) (row x2 i) (row x3 i) (row x4 i) ⟨2, by decide⟩ := by
  simp only [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, scalar_eq,
    cast_vec_col_apply, mulf_apply, addf_apply, subf_apply, broadcast_apply, column_eq]
  rfl

/-- Stored column 3 at row i: the second matrix row applied to the first tangent. -/
theorem stored3 (i : Fin 100000) (u : Fin 1) :
    (k0_pay1 (k0_pay40 (k0_pay11 x1) (k0_pay12 x0) (k0_pay13 x0) (k0_pay14 x0) x2 x4) : FVec Ideal S100000x1 .f32) (ix2 i u)
      = entry (row x0 i) (x1 (ix1 (0 : Fin 1))) (row x2 i) (row x3 i) (row x4 i) ⟨3, by decide⟩ := by
  simp only [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, scalar_eq,
    cast_vec_col_apply, mulf_apply, addf_apply, subf_apply, broadcast_apply, column_eq]
  rfl

/-- Stored column 4 at row i: the second matrix row applied to the second tangent. -/
theorem stored4 (i : Fin 100000) (u : Fin 1) :
    (k0_pay2 (k0_pay43 (k0_pay41 (k0_pay11 x1) (k0_pay15 x0) (k0_pay16 x0) x2 x4) (k0_pay42 (k0_pay11 x1) (k0_pay17 x0) x2 x4)) : FVec Ideal S100000x1 .f32) (ix2 i u)
      = entry (row x0 i) (x1 (ix1 (0 : Fin 1))) (row x2 i) (row x3 i) (row x4 i) ⟨4, by decide⟩ := by
  simp only [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, scalar_eq,
    cast_vec_col_apply, mulf_apply, addf_apply, subf_apply, broadcast_apply, column_eq]
  rfl

/-- Stored column 5 at row i: the second matrix row's affine action on the point. -/
theorem stored5 (i : Fin 100000) (u : Fin 1) :
    (k0_pay3 (k0_pay49 (k0_pay27 x4) (k0_pay30 x4) (k0_pay33 x4) (k0_pay36 x4) x3) : FVec Ideal S100000x1 .f32) (ix2 i u)
      = entry (row x0 i) (x1 (ix1 (0 : Fin 1))) (row x2 i) (row x3 i) (row x4 i) ⟨5, by decide⟩ := by
  simp only [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, scalar_eq,
    cast_vec_col_apply, mulf_apply, addf_apply, subf_apply, broadcast_apply, column_eq]
  rfl

/-- Stored column 6 at row i: the third matrix row applied to the first tangent. -/
theorem stored6 (i : Fin 100000) (u : Fin 1) :
    (k0_pay4 (k0_pay44 (k0_pay20 (k0_pay11 x1) (k0_pay12 x0) x2) (k0_pay21 (k0_pay11 x1) (k0_pay13 x0) x2) (k0_pay22 (k0_pay11 x1) (k0_pay14 x0) x2) (k0_pay28 x4) (k0_pay31 x4) (k0_pay34 x4)) : FVec Ideal S100000x1 .f32) (ix2 i u)
      = entry (row x0 i) (x1 (ix1 (0 : Fin 1))) (row x2 i) (row x3 i) (row x4 i) ⟨6, by decide⟩ := by
  simp only [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, scalar_eq,
    cast_vec_col_apply, mulf_apply, addf_apply, subf_apply, broadcast_apply, column_eq]
  rfl

/-- Stored column 7 at row i: the third matrix row applied to the second tangent. -/
theorem stored7 (i : Fin 100000) (u : Fin 1) :
    (k0_pay5 (k0_pay45 (k0_pay23 (k0_pay11 x1) (k0_pay15 x0) x2) (k0_pay24 (k0_pay11 x1) (k0_pay16 x0) x2) (k0_pay25 (k0_pay11 x1) (k0_pay17 x0) x2) (k0_pay28 x4) (k0_pay31 x4) (k0_pay34 x4)) : FVec Ideal S100000x1 .f32) (ix2 i u)
      = entry (row x0 i) (x1 (ix1 (0 : Fin 1))) (row x2 i) (row x3 i) (row x4 i) ⟨7, by decide⟩ := by
  simp only [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, scalar_eq,
    cast_vec_col_apply, mulf_apply, addf_apply, subf_apply, broadcast_apply, column_eq]
  rfl

/-- Stored column 8 at row i: the third matrix row's affine action on the point. -/
theorem stored8 (i : Fin 100000) (u : Fin 1) :
    (k0_pay6 (k0_pay50 (k0_pay28 x4) (k0_pay31 x4) (k0_pay34 x4) (k0_pay37 x4) x3) : FVec Ideal S100000x1 .f32) (ix2 i u)
      = entry (row x0 i) (x1 (ix1 (0 : Fin 1))) (row x2 i) (row x3 i) (row x4 i) ⟨8, by decide⟩ := by
  simp only [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, scalar_eq,
    cast_vec_col_apply, mulf_apply, addf_apply, subf_apply, broadcast_apply, column_eq]
  rfl

/-- The all-zero offsets of a rank-two rectangle, as the constant function. -/
theorem zero2 : (![0, 0] : Fin 2 → ℕ) = fun _ => 0 := by
  funext a; match a with | ⟨0, _⟩ => rfl | ⟨1, _⟩ => rfl
/-- The zero offset of a rank-one rectangle, as the constant function. -/
theorem zero1 : (![0] : Fin 1 → ℕ) = fun _ => 0 := by
  funext a; match a with | ⟨0, _⟩ => rfl

/-- The row map of the blocks at the index a column rectangle gives a local index: row `x 0`, column k. -/
theorem rowsMap_at_column (k : ℕ) (hk : k < 9) (inb : ∀ a, (![0, k] : Fin 2 → ℕ) a + S100000x1.size a ≤ S100000x9.size a)
    (i : Fin 100000) (u : Fin 1) :
    rowsMap x0 x1 x2 x3 x4 ((Rect.unit (s := S100000x9) ![0, k] S100000x1.size inb).emb (ix2 i u))
      = entry (row x0 i) (x1 (ix1 (0 : Fin 1))) (row x2 i) (row x3 i) (row x4 i) ⟨k, hk⟩ := by
  have e0 : ((Rect.unit (s := S100000x9) ![0, k] S100000x1.size inb).emb (ix2 i u)) 0 = i :=
    Fin.ext (by show 0 + 1 * i.val = i.val; omega)
  have e1 : ((Rect.unit (s := S100000x9) ![0, k] S100000x1.size inb).emb (ix2 i u)) 1 = (⟨k, hk⟩ : Fin 9) :=
    Fin.ext (by show k + 1 * u.val = k; have := u.isLt; omega)
  unfold rowsMap
  rw [e0, e1]

/-- THE BLOCK a grid step leaves: the row map of its input blocks. -/
theorem block_eq : out0_5 (F := Ideal) x0 x1 x2 x3 x4 = rowsMap x0 x1 x2 x3 x4 := by
  funext y
  unfold out0_5
  simp only [View.ld_unit_zero (S := S100000x4) zero2, View.ld_unit_zero (S := S1) zero1,
    View.ld_unit_zero (S := S100000x2) zero2, View.ld_unit_zero (S := S100000x3) zero2,
    View.ld_unit_zero (S := S100000x16) zero2]
  refine View.canon_apply_of_pieces (Val := Elt Ideal) (S := S100000x9) (e := .f32) (rowsMap x0 x1 x2 x3 x4) _ ?_ y
    (cover0_5 _ _ _ _ _ _ _ _ _ y)
  intro pc hpc
  rcases List.mem_cons.mp hpc with rfl | hpc
  · intro x
    obtain ⟨i, u, rfl⟩ : ∃ (i : Fin 100000) (u : Fin 1), x = ix2 i u := ⟨x 0, x 1, eq_ix2 x⟩
    exact (stored8 x0 x1 x2 x3 x4 i u).trans (rowsMap_at_column x0 x1 x2 x3 x4 8 (by decide) inb_S100000x9_S100000x1_0_8 i u).symm
  rcases List.mem_cons.mp hpc with rfl | hpc
  · intro x
    obtain ⟨i, u, rfl⟩ : ∃ (i : Fin 100000) (u : Fin 1), x = ix2 i u := ⟨x 0, x 1, eq_ix2 x⟩
    exact (stored7 x0 x1 x2 x3 x4 i u).trans (rowsMap_at_column x0 x1 x2 x3 x4 7 (by decide) inb_S100000x9_S100000x1_0_7 i u).symm
  rcases List.mem_cons.mp hpc with rfl | hpc
  · intro x
    obtain ⟨i, u, rfl⟩ : ∃ (i : Fin 100000) (u : Fin 1), x = ix2 i u := ⟨x 0, x 1, eq_ix2 x⟩
    exact (stored6 x0 x1 x2 x3 x4 i u).trans (rowsMap_at_column x0 x1 x2 x3 x4 6 (by decide) inb_S100000x9_S100000x1_0_6 i u).symm
  rcases List.mem_cons.mp hpc with rfl | hpc
  · intro x
    obtain ⟨i, u, rfl⟩ : ∃ (i : Fin 100000) (u : Fin 1), x = ix2 i u := ⟨x 0, x 1, eq_ix2 x⟩
    exact (stored5 x0 x1 x2 x3 x4 i u).trans (rowsMap_at_column x0 x1 x2 x3 x4 5 (by decide) inb_S100000x9_S100000x1_0_5 i u).symm
  rcases List.mem_cons.mp hpc with rfl | hpc
  · intro x
    obtain ⟨i, u, rfl⟩ : ∃ (i : Fin 100000) (u : Fin 1), x = ix2 i u := ⟨x 0, x 1, eq_ix2 x⟩
    exact (stored4 x0 x1 x2 x3 x4 i u).trans (rowsMap_at_column x0 x1 x2 x3 x4 4 (by decide) inb_S100000x9_S100000x1_0_4 i u).symm
  rcases List.mem_cons.mp hpc with rfl | hpc
  · intro x
    obtain ⟨i, u, rfl⟩ : ∃ (i : Fin 100000) (u : Fin 1), x = ix2 i u := ⟨x 0, x 1, eq_ix2 x⟩
    exact (stored3 x0 x1 x2 x3 x4 i u).trans (rowsMap_at_column x0 x1 x2 x3 x4 3 (by decide) inb_S100000x9_S100000x1_0_3 i u).symm
  rcases List.mem_cons.mp hpc with rfl | hpc
  · intro x
    obtain ⟨i, u, rfl⟩ : ∃ (i : Fin 100000) (u : Fin 1), x = ix2 i u := ⟨x 0, x 1, eq_ix2 x⟩
    exact (stored2 x0 x1 x2 x3 x4 i u).trans (rowsMap_at_column x0 x1 x2 x3 x4 2 (by decide) inb_S100000x9_S100000x1_0_2 i u).symm
  rcases List.mem_cons.mp hpc with rfl | hpc
  · intro x
    obtain ⟨i, u, rfl⟩ : ∃ (i : Fin 100000) (u : Fin 1), x = ix2 i u := ⟨x 0, x 1, eq_ix2 x⟩
    exact (stored1 x0 x1 x2 x3 x4 i u).trans (rowsMap_at_column x0 x1 x2 x3 x4 1 (by decide) inb_S100000x9_S100000x1_0_1 i u).symm
  rcases List.mem_cons.mp hpc with rfl | hpc
  · intro x
    obtain ⟨i, u, rfl⟩ : ∃ (i : Fin 100000) (u : Fin 1), x = ix2 i u := ⟨x 0, x 1, eq_ix2 x⟩
    exact (stored0 x0 x1 x2 x3 x4 i u).trans (rowsMap_at_column x0 x1 x2 x3 x4 0 (by decide) inb_S100000x9_S100000x1_0_0 i u).symm
  nomatch hpc

end Cert.KernelIdeal.Block

end
-- ==== Proof.KernelArray.lean ====
/-
  From the blocks to the whole array.

  The grid has 20 steps. At step t every two-axis window holds rows 100000 t … 100000 t + 99999 of its array, all
  columns, and the scalar's window holds its one entry; the step writes its output block back to the same rows of the
  result. So row r of an input block at step t is row 100000 t + r of the argument, and — the block a step leaves being
  the row map of its input blocks (KernelBlock.lean) — what step t writes back is rows 100000 t … of the row map of the
  ARGUMENT arrays. Row R of the result lies in the block of step R / 100000, so the blocks cover the result, and after
  the run the result array is the row map of the argument arrays.
-/
import proofs.«150587_j36567351558250_1_alg».proof.Proof.Gen.KernelIdeal.Value
import proofs.«150587_j36567351558250_1_alg».proof.Proof.KernelBlock

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Cert.RowMap

variable (m : (ℓ : Loc nD τ sig) → Buf (Elt Ideal) ℓ) (ρ : Dev nD → PrngReg)

/-- The row map only looks at one row of each array: if a block's row r is an array's row R (and the scalars agree),
    the block's results in row r are the array's results in row R. -/
theorem rowsMap_of_rows {N N' : ℕ}
    (X0 : (⟨2, ![N, 4]⟩ : Shape).Idx → Ideal .f32) (X1 : (⟨1, ![1]⟩ : Shape).Idx → Ideal .f32)
    (X2 : (⟨2, ![N, 2]⟩ : Shape).Idx → Ideal .f32) (X3 : (⟨2, ![N, 3]⟩ : Shape).Idx → Ideal .f32)
    (X4 : (⟨2, ![N, 16]⟩ : Shape).Idx → Ideal .f32)
    (A0 : (⟨2, ![N', 4]⟩ : Shape).Idx → Ideal .f32) (A1 : (⟨1, ![1]⟩ : Shape).Idx → Ideal .f32)
    (A2 : (⟨2, ![N', 2]⟩ : Shape).Idx → Ideal .f32) (A3 : (⟨2, ![N', 3]⟩ : Shape).Idx → Ideal .f32)
    (A4 : (⟨2, ![N', 16]⟩ : Shape).Idx → Ideal .f32) (r : Fin N) (R : Fin N') (k : Fin 9)
    (h0 : ∀ a, X0 (ix2 r a) = A0 (ix2 R a)) (h1 : X1 (ix1 (0 : Fin 1)) = A1 (ix1 (0 : Fin 1)))
    (h2 : ∀ a, X2 (ix2 r a) = A2 (ix2 R a)) (h3 : ∀ a, X3 (ix2 r a) = A3 (ix2 R a))
    (h4 : ∀ a, X4 (ix2 r a) = A4 (ix2 R a)) :
    rowsMap X0 X1 X2 X3 X4 (ix2 r k) = rowsMap A0 A1 A2 A3 A4 (ix2 R k) := by
  show entry (fun a => X0 (ix2 r a)) (X1 (ix1 (0 : Fin 1))) (fun a => X2 (ix2 r a)) (fun a => X3 (ix2 r a))
      (fun a => X4 (ix2 r a)) k
    = entry (fun a => A0 (ix2 R a)) (A1 (ix1 (0 : Fin 1))) (fun a => A2 (ix2 R a)) (fun a => A3 (ix2 R a))
      (fun a => A4 (ix2 R a)) k
  rw [funext h0, h1, funext h2, funext h3, funext h4]

/-- The printed index maps, decided over the 20 grid steps: step t takes block row t, block column 0, of every
    two-axis window, and block 0 of the scalar's. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row r of window 0's block at step t is row 100000 t + r of its argument array. -/
theorem iblk0_apply (c : Dev nD) (t : Fin cfg0.N) (r : Fin 100000) (a : Fin 4) (R : Fin 2000000)
    (hR : R.val = t.val * 100000 + r.val) :
    (iblk m c 0 t : Vec Ideal S100000x4 .f32) (ix2 r a)
      = (m ((c : Thread nD τ).loc main_arg0) : S2000000x4.Idx → Elt Ideal .f32) (ix2 R a) := by
  obtain ⟨e0, e1, -⟩ := idx_facts t
  unfold iblk
  rw [View.read_apply]
  show V m c main_arg0 _ = m (c.tc.loc main_arg0) _
  unfold V
  congr 1
  funext ax
  apply Fin.ext
  match ax with
  | ⟨0, _⟩ => show win0_0.index t 0 * 100000 + 1 * r.val = R.val; rw [e0, hR]; omega
  | ⟨1, _⟩ => show win0_0.index t 1 * 4 + 1 * a.val = a.val; rw [e1]; omega

/-- Row r of window 2's block at step t is row 100000 t + r of its argument array. -/
theorem iblk2_apply (c : Dev nD) (t : Fin cfg0.N) (r : Fin 100000) (a : Fin 2) (R : Fin 2000000)
    (hR : R.val = t.val * 100000 + r.val) :
    (iblk m c 2 t : Vec Ideal S100000x2 .f32) (ix2 r a)
      = (m ((c : Thread nD τ).loc main_arg2) : S2000000x2.Idx → Elt Ideal .f32) (ix2 R a) := by
  obtain ⟨-, -, -, e0, e1, -⟩ := idx_facts t
  unfold iblk
  rw [View.read_apply]
  show V m c main_arg2 _ = m (c.tc.loc main_arg2) _
  unfold V
  congr 1
  funext ax
  apply Fin.ext
  match ax with
  | ⟨0, _⟩ => show win0_2.index t 0 * 100000 + 1 * r.val = R.val; rw [e0, hR]; omega
  | ⟨1, _⟩ => show win0_2.index t 1 * 2 + 1 * a.val = a.val; rw [e1]; omega

/-- Row r of window 3's block at step t is row 100000 t + r of its argument array. -/
theorem iblk3_apply (c : Dev nD) (t : Fin cfg0.N) (r : Fin 100000) (a : Fin 3) (R : Fin 2000000)
    (hR : R.val = t.val * 100000 + r.val) :
    (iblk m c 3 t : Vec Ideal S100000x3 .f32) (ix2 r a)
      = (m ((c : Thread nD τ).loc main_arg3) : S2000000x3.Idx → Elt Ideal .f32) (ix2 R a) := by
  obtain ⟨-, -, -, -, -, e0, e1, -⟩ := idx_facts t
  unfold iblk
  rw [View.read_apply]
  show V m c main_arg3 _ = m (c.tc.loc main_arg3) _
  unfold V
  congr 1
  funext ax
  apply Fin.ext
  match ax with
  | ⟨0, _⟩ => show win0_3.index t 0 * 100000 + 1 * r.val = R.val; rw [e0, hR]; omega
  | ⟨1, _⟩ => show win0_3.index t 1 * 3 + 1 * a.val = a.val; rw [e1]; omega

/-- Row r of window 4's block at step t is row 100000 t + r of its argument array. -/
theorem iblk4_apply (c : Dev nD) (t : Fin cfg0.N) (r : Fin 100000) (a : Fin 16) (R : Fin 2000000)
    (hR : R.val = t.val * 100000 + r.val) :
    (iblk m c 4 t : Vec Ideal S100000x16 .f32) (ix2 r a)
      = (m ((c : Thread nD τ).loc main_arg4) : S2000000x16.Idx → Elt Ideal .f32) (ix2 R a) := by
  obtain ⟨-, -, -, -, -, -, -, e0, e1, -⟩ := idx_facts t
  unfold iblk
  rw [View.read_apply]
  show V m c main_arg4 _ = m (c.tc.loc main_arg4) _
  unfold V
  congr 1
  funext ax
  apply Fin.ext
  match ax with
  | ⟨0, _⟩ => show win0_4.index t 0 * 100000 + 1 * r.val = R.val; rw [e0, hR]; omega
  | ⟨1, _⟩ => show win0_4.index t 1 * 16 + 1 * a.val = a.val; rw [e1]; omega

/-- The scalar window's block at any step is the one-entry argument array. -/
theorem iblk1_apply (c : Dev nD) (t : Fin cfg0.N) :
    (iblk m c 1 t : Vec Ideal S1 .f32) (ix1 (0 : Fin 1))
      = (m ((c : Thread nD τ).loc main_arg1) : S1.Idx → Elt Ideal .f32) (ix1 (0 : Fin 1)) := by
  obtain ⟨-, -, e0, -⟩ := idx_facts t
  unfold iblk
  rw [View.read_apply]
  show V m c main_arg1 _ = m (c.tc.loc main_arg1) _
  unfold V
  congr 1
  funext ax
  apply Fin.ext
  match ax with
  | ⟨0, _⟩ => show win0_1.index t 0 * 1 + 1 * 0 = 0; rw [e0]

/-- The result array the kernel is shown to leave: the row map of the argument arrays as launched. -/
abbrev result (c : Dev nD) : S2000000x9.Idx → Elt Ideal .f32 :=
  rowsMap (m ((c : Thread nD τ).loc main_arg0)) (m ((c : Thread nD τ).loc main_arg1))
    (m ((c : Thread nD τ).loc main_arg2)) (m ((c : Thread nD τ).loc main_arg3)) (m ((c : Thread nD τ).loc main_arg4))

/-- WHAT STEP t WRITES BACK is its block of rows of `result`. -/
theorem flushed_eq (c : Dev nD) (t : Fin cfg0.N) :
    (dats m 0 c).flushed 5 t = ((cfg0.win 5).blk t).view.read (Elt Ideal) (result m c) := by
  obtain ⟨-, -, -, -, -, -, -, -, -, e50, e51⟩ := idx_facts t
  have hN : grid0.N = 20 := N_0
  have ht : t.val < grid0.N := t.isLt
  show (cfg0.win 5).cut (grid0.coords t) ((dats m 0 c).after 5 t) = _
  rw [after0_5]
  funext y
  obtain ⟨r, k, rfl⟩ : ∃ (r : Fin 100000) (k : Fin 9), y = ix2 r k := ⟨y 0, y 1, eq_ix2 y⟩
  have hR : t.val * 100000 + r.val < 2000000 := by have := r.isLt; omega
  show out0_5 (iblk m c 0 t) (iblk m c 1 t) (iblk m c 2 t) (iblk m c 3 t) (iblk m c 4 t) (ix2 r k)
    = result m c (((cfg0.win 5).blk t).view.emb (ix2 r k))
  have hemb : ((cfg0.win 5).blk t).view.emb (ix2 r k)
      = (ix2 (⟨t.val * 100000 + r.val, hR⟩ : Fin 2000000) k : S2000000x9.Idx) := by
    funext ax
    apply Fin.ext
    match ax with
    | ⟨0, _⟩ => show win0_5.index t 0 * 100000 + 1 * r.val = t.val * 100000 + r.val; rw [e50]; omega
    | ⟨1, _⟩ => show win0_5.index t 1 * 9 + 1 * k.val = k.val; rw [e51]; omega
  rw [hemb]
  refine (congrFun (Block.block_eq (iblk m c 0 t) (iblk m c 1 t) (iblk m c 2 t) (iblk m c 3 t) (iblk m c 4 t)) (ix2 r k)).trans ?_
  exact rowsMap_of_rows _ _ _ _ _ _ _ _ _ _ r ⟨_, hR⟩ k (fun a => iblk0_apply m c t r a _ rfl) (iblk1_apply m c t)
    (fun a => iblk2_apply m c t r a _ rfl) (fun a => iblk3_apply m c t r a _ rfl) (fun a => iblk4_apply m c t r a _ rfl)

/-- Every row of the result lies in some step's block: row R in the block of step R / 100000. -/
theorem cover (i : S2000000x9.Idx) :
    ∃ t : Fin cfg0.N, (cfg0.win 5).flush t = true ∧ i ∈ ((cfg0.win 5).blk t).view.set := by
  have hN : grid0.N = 20 := N_0
  have hi0 : (i 0).val < 2000000 := (i 0).isLt
  have hi1 : (i 1).val < 9 := (i 1).isLt
  have htlt : (i 0).val / 100000 < cfg0.N := by show (i 0).val / 100000 < grid0.N; omega
  obtain ⟨-, -, -, -, -, -, -, -, -, e50, e51⟩ := idx_facts ⟨(i 0).val / 100000, htlt⟩
  refine ⟨⟨(i 0).val / 100000, htlt⟩, flush0_5 _, ?_⟩
  show i ∈ ((View.whole main_v0).slice (win0_5.rect ⟨(i 0).val / 100000, htlt⟩)).set
  rw [View.set_slice_whole, Rect.mem_set_unit]
  intro a
  match a with
  | ⟨0, _⟩ =>
    show win0_5.index ⟨(i 0).val / 100000, htlt⟩ 0 * 100000 ≤ (i 0).val
      ∧ (i 0).val < win0_5.index ⟨(i 0).val / 100000, htlt⟩ 0 * 100000 + 100000
    rw [e50]
    show (i 0).val / 100000 * 100000 ≤ (i 0).val ∧ (i 0).val < (i 0).val / 100000 * 100000 + 100000
    omega
  | ⟨1, _⟩ =>
    show win0_5.index ⟨(i 0).val / 100000, htlt⟩ 1 * 9 ≤ (i 1).val
      ∧ (i 1).val < win0_5.index ⟨(i 0).val / 100000, htlt⟩ 1 * 9 + 9
    rw [e51]
    omega

/-- THE RESULT ARRAY after the run is `result`. -/
theorem final (c : Dev nD) : (dats m 0 c).arrAt 5 cfg0.N = result m c :=
  (dats m 0 c).arrAt_eq_of_cover 5 (result m c) (fun t _ => flushed_eq m c t) (cover)

/-- The kernel's run, read: the result array at the row map of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefValue.lean ====
/-
  The reference's result, entry by entry.

  The reference computes on whole columns of the argument arrays: each column is cut out as a vector over all
  2000000 rows, the nine result vectors are built by elementwise sums, differences and products (the constants and the
  shared scalar spread over the rows), each result vector is given a trailing unit axis, and the nine columns are laid
  side by side. Read at (i, k): the side-by-side array is column k at row i, a column cut from an array is the array's
  entry in row i, a spread scalar is the scalar, and the elementwise operations act entry by entry — so entry (i, k) is
  result k of the row map (RowMap.lean) at row i of the arrays.
-/
import proofs.«150587_j36567351558250_1_alg».proof.Proof.Gen.ReferenceIdeal.Run
import proofs.«150587_j36567351558250_1_alg».proof.Proof.LibColumns
import proofs.«150587_j36567351558250_1_alg».proof.Proof.RowMap
import Idealize.ShloMosaic.Lib.IdealHost
import Idealize.ShloMosaic.Lib.ValueIdx

noncomputable section

namespace Cert.ReferenceIdeal.RefValue

open Cert.ReferenceIdeal Cert.ReferenceIdeal.Gen Cert.ReferenceIdeal.Value Idealize.ShloMosaic
open Idealize.ShloMosaic.ValueIdx Idealize.ShloMosaic.StableHlo Cert.Columns Cert.RowMap

variable (V0 : Valuation τ sig (Elt Ideal))

/-- The five argument arrays of a valuation, with their literal types. -/
abbrev quat : FVec Ideal S2000000x4 .f32 := V0 (Proc.devRef .tc main_arg0)
abbrev modulus : FVec Ideal S1 .f32 := V0 (Proc.devRef .tc main_arg1)
abbrev scales : FVec Ideal S2000000x2 .f32 := V0 (Proc.devRef .tc main_arg2)
abbrev points : FVec Ideal S2000000x3 .f32 := V0 (Proc.devRef .tc main_arg3)
abbrev matrices : FVec Ideal S2000000x16 .f32 := V0 (Proc.devRef .tc main_arg4)

/-! ## The columns the run names: the quaternion's four, the scalar, the two scaled scales, the point's three -/

theorem quat0_apply (i : Fin 2000000) :
    (res_main_v1 V0 : FVec Ideal S2000000 .f32) (ix1 i) = quat V0 (ix2 i ⟨0, by decide⟩) := by
  unfold res_main_v1
  exact column_eq 0 (quat V0) slices_S2000000x4_S2000000x1_0_0 shapeCasts_S2000000x1_S2000000 i

theorem quat1_apply (i : Fin 2000000) :
    (res_main_v3 V0 : FVec Ideal S2000000 .f32) (ix1 i) = quat V0 (ix2 i ⟨1, by decide⟩) := by
  unfold res_main_v3
  exact column_eq 1 (quat V0) slices_S2000000x4_S2000000x1_0_1 shapeCasts_S2000000x1_S2000000 i

theorem quat2_apply (i : Fin 2000000) :
    (res_main_v5 V0 : FVec Ideal S2000000 .f32) (ix1 i) = quat V0 (ix2 i ⟨2, by decide⟩) := by
  unfold res_main_v5
  exact column_eq 2 (quat V0) slices_S2000000x4_S2000000x1_0_2 shapeCasts_S2000000x1_S2000000 i

theorem quat3_apply (i : Fin 2000000) :
    (res_main_v7 V0 : FVec Ideal S2000000 .f32) (ix1 i) = quat V0 (ix2 i ⟨3, by decide⟩) := by
  unfold res_main_v7
  exact column_eq 3 (quat V0) slices_S2000000x4_S2000000x1_0_3 shapeCasts_S2000000x1_S2000000 i

/-- The one-entry array as a scalar is its entry. -/
theorem scalar_apply (j : S_.Idx) : (res_main_v8 V0 : FVec Ideal S_ .f32) j = modulus V0 (ix1 (0 : Fin 1)) := by
  unfold res_main_v8
  exact cast_one_scalar_apply (modulus V0) shapeCasts_S1_S_ j

/-- The scalar times the first scale, at row i. -/
theorem scale0_apply (i : Fin 2000000) :
    (res_main_v46 V0 : FVec Ideal S2000000 .f32) (ix1 i)
      = modulus V0 (ix1 (0 : Fin 1)) * scales V0 (ix2 i ⟨0, by decide⟩) := by
  unfold res_main_v46
  show (broadcastInDim S2000000 ![] bcast_S_S2000000 (res_main_v8 V0) (ix1 i) : Ideal .f32)
      * shapeCast S2000000 (extractStridedSlice S2000000x1 ![0, 0] (scales V0) slices_S2000000x2_S2000000x1_0_0)
          shapeCasts_S2000000x1_S2000000 (ix1 i) = _
  rw [broadcastInDim_scalar_apply, scalar_apply, column_eq]

/-- The scalar times the second scale, at row i. -/
theorem scale1_apply (i : Fin 2000000) :
    (res_main_v50 V0 : FVec Ideal S2000000 .f32) (ix1 i)
      = modulus V0 (ix1 (0 : Fin 1)) * scales V0 (ix2 i ⟨1, by decide⟩) := by
  unfold res_main_v50
  show (broadcastInDim S2000000 ![] bcast_S_S2000000 (res_main_v8 V0) (ix1 i) : Ideal .f32)
      * shapeCast S2000000 (extractStridedSlice S2000000x1 ![0, 1] (scales V0) slices_S2000000x2_S2000000x1_0_1)
          shapeCasts_S2000000x1_S2000000 (ix1 i) = _
  rw [broadcastInDim_scalar_apply, scalar_apply, column_eq]

theorem point0_apply (i : Fin 2000000) :
    (res_main_v124 V0 : FVec Ideal S2000000 .f32) (ix1 i) = points V0 (ix2 i ⟨0, by decide⟩) := by
  unfold res_main_v124
  exact column_eq 0 (points V0) slices_S2000000x3_S2000000x1_0_0 shapeCasts_S2000000x1_S2000000 i

theorem point1_apply (i : Fin 2000000) :
    (res_main_v126 V0 : FVec Ideal S2000000 .f32) (ix1 i) = points V0 (ix2 i ⟨1, by decide⟩) := by
  unfold res_main_v126
  exact column_eq 1 (points V0) slices_S2000000x3_S2000000x1_0_1 shapeCasts_S2000000x1_S2000000 i

theorem point2_apply (i : Fin 2000000) :
    (res_main_v128 V0 : FVec Ideal S2000000 .f32) (ix1 i) = points V0 (ix2 i ⟨2, by decide⟩) := by
  unfold res_main_v128
  exact column_eq 2 (points V0) slices_S2000000x3_S2000000x1_0_2 shapeCasts_S2000000x1_S2000000 i

/-! ## The result -/

/-- A vector given a trailing unit axis reads, at (i, u), the vector at i. -/
theorem column_of_apply (x : FVec Ideal S2000000 .f32) (i : Fin 2000000) (u : Fin 1) :
    broadcastInDim S2000000x1 ![0] bcast_S2000000_S2000000x1_0 x (ix2 i u) = x (ix1 i) :=
  bcast_vec_col_apply x bcast_S2000000_S2000000x1_0 i u

/-- A constant spread over the rows reads the constant's value at every row. -/
theorem splat_apply (w : BitVec 32) (i : Fin 2000000) :
    broadcastInDim S2000000 ![] bcast_S_S2000000 (constant (F := Ideal) S_ .f32 w) (ix1 i) = Ideal.ofBits .f32 w := by
  rw [broadcastInDim_scalar_apply]
  rfl

set_option maxRecDepth 16384 in
/-- The run's result term is the row map of the argument arrays. -/
theorem result_eq :
    (res_out0 V0 : FVec Ideal S2000000x9 .f32)
      = rowsMap (quat V0) (modulus V0) (scales V0) (points V0) (matrices V0) := by
  funext j
  obtain ⟨i, k, rfl⟩ : ∃ (i : Fin 2000000) (k : Fin 9), j = ix2 i k := ⟨j 0, j 1, eq_ix2 j⟩
  show res_main_v180 V0 (ix2 i k) = _
  unfold res_main_v180
  refine (nine_columns_apply _ _ _ _ _ _ _ _ _ _ i k).trans ?_
  fin_cases k <;>
  · dsimp only [pick9]
    rw [column_of_apply]
    simp only [res_main_v51, res_main_v52, res_main_v53, res_main_v54, res_main_v55, res_main_v56,
      quat0_apply, quat1_apply, quat2_apply, quat3_apply, scale0_apply, scale1_apply,
      point0_apply, point1_apply, point2_apply,
      splat_apply, mulf_apply, addf_apply, subf_apply, column_eq]
    rfl

end Cert.ReferenceIdeal.RefValue

end
-- ==== Proof.lean ====
/-
  The kernel and its reference compute the same nine numbers on every row.

  Each of the 2000000 rows holds a quaternion, two scales, a point and a 4 x 4 matrix, and one scalar is shared by all
  rows. The nine results of a row are a fixed tree of sums, differences and products of these entries (RowMap.lean). The
  kernel walks the rows in 20 blocks of 100000; on each block it cuts the columns it needs out of the staged blocks,
  combines them elementwise and stores nine result columns, so the block it writes back is the row map of its input blocks
  (KernelBlock.lean), and the blocks together make the row map of the argument arrays (KernelArray.lean). The reference
  does the same arithmetic on whole columns of the arguments and lays the nine result columns side by side, which entry by
  entry is again the row map (RefValue.lean). Both programs spell the SAME tree — the same grouping of every sum and
  product, the same constants 2 and 1 — so the two results agree at every input and no property of the inputs is used;
  the idealized kernel is the kernel's own text (nothing was rewritten), so there is nothing to preserve.
-/
import proofs.«150587_j36567351558250_1_alg».proof.Defs
import proofs.«150587_j36567351558250_1_alg».proof.Proof.Gen.Kernel
import proofs.«150587_j36567351558250_1_alg».proof.Proof.Gen.Kernel.Frame
import proofs.«150587_j36567351558250_1_alg».proof.Proof.Gen.KernelIdeal
import proofs.«150587_j36567351558250_1_alg».proof.Proof.Gen.KernelIdeal.Frame
import proofs.«150587_j36567351558250_1_alg».proof.Proof.Gen.KernelIdeal.Value
import proofs.«150587_j36567351558250_1_alg».proof.Proof.Gen.ReferenceIdeal
import proofs.«150587_j36567351558250_1_alg».proof.Proof.Gen.ReferenceIdeal.Run
import proofs.«150587_j36567351558250_1_alg».proof.Proof.Gen.Pre_finite_inputs
import proofs.«150587_j36567351558250_1_alg».proof.Proof.KernelArray
import proofs.«150587_j36567351558250_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference runs and leaves its arguments as they were: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the five arguments, the kernel's result array and the reference's are both the row map
    of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq (Idealize.ShloMosaic.StableHlo.launchContents m' c)).trans ?_
  obtain ⟨h0, h1, h2, h3, h4⟩ := hagree c
  show Cert.RowMap.rowsMap
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
    = Cert.RowMap.rowsMap
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
